-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x13x512x512 : Shape := ⟨4, ![16, 13, 512, 512]⟩
abbrev S_ : Shape := ⟨0, ![]⟩

class Facts : Prop where
  bcast_S_S16x13x512x512 : S_.BroadcastsInDim S16x13x512x512 (![] : Fin 0 → Fin S16x13x512x512.rank)
  reducesTo_S16x13x512x512_S_d0_1_2_3 : S16x13x512x512.ReducesTo [0, 1, 2, 3] S_
  h_S_ : 0 < S_.numel

variable [Facts]

def fn {F : FTy → Type} [FloatOps F] (main_arg0 : FVec F S16x13x512x512 .f32) (main_arg1 : FVec F S16x13x512x512 .f32) : IVec S_ 1 :=
  let main_v0 : FVec F S16x13x512x512 .f32 := Host.absf main_arg0
  let main_cst : FVec F S_ .f32 := constant S_ .f32 0x7F800000#32
  let main_v1 : FVec F S16x13x512x512 .f32 := broadcastInDim S16x13x512x512 ![] bcast_S_S16x13x512x512 main_cst
  let main_v2 : IVec S16x13x512x512 1 := cmpf .olt main_v0 main_v1
  let main_c : IVec S_ 1 := constantI S_ 1 1#1
  let main_v3 : IVec S_ 1 := (fun x v => Host.reduce IntOp.andi x v reducesTo_S16x13x512x512_S_d0_1_2_3 h_S_) main_v2 main_c
  let main_v4 : FVec F S16x13x512x512 .f32 := Host.absf main_arg1
  let main_cst_0 : FVec F S_ .f32 := constant S_ .f32 0x7F800000#32
  let main_v5 : FVec F S16x13x512x512 .f32 := broadcastInDim S16x13x512x512 ![] bcast_S_S16x13x512x512 main_cst_0
  let main_v6 : IVec S16x13x512x512 1 := cmpf .olt main_v4 main_v5
  let main_c_1 : IVec S_ 1 := constantI S_ 1 1#1
  let main_v7 : IVec S_ 1 := (fun x v => Host.reduce IntOp.andi x v reducesTo_S16x13x512x512_S_d0_1_2_3 h_S_) main_v6 main_c_1
  let main_v8 : IVec S_ 1 := andi main_v3 main_v7
  main_v8
-- ==== Kernel.lean ====
abbrev S16x13x512x512 : Shape := ⟨4, ![16, 13, 512, 512]⟩
abbrev S16x13 : Shape := ⟨2, ![16, 13]⟩
abbrev S8x13x32x512 : Shape := ⟨4, ![8, 13, 32, 512]⟩
abbrev S8x13 : Shape := ⟨2, ![8, 13]⟩
abbrev S8x13x512 : Shape := ⟨3, ![8, 13, 512]⟩
abbrev S_ : Shape := ⟨0, ![]⟩

abbrev nBuf : Space → Nat
  | .hbm => 37
  | .vmem => 8
  | .smem => 0
  | _ => 0

abbrev bufTy : (tb : Table) → Fin (tcTables nBuf tb) → BufTy
  | .hbm, ⟨0, _⟩ => ⟨S16x13x512x512, .f32⟩
  | .hbm, ⟨1, _⟩ => ⟨S16x13x512x512, .f32⟩
  | .hbm, ⟨2, _⟩ => ⟨S16x13, .f32⟩
  | .hbm, ⟨3, _⟩ => ⟨S16x13, .f32⟩
  | .hbm, ⟨4, _⟩ => ⟨S_, .f32⟩
  | .hbm, ⟨5, _⟩ => ⟨S16x13, .f32⟩
  | .hbm, ⟨6, _⟩ => ⟨S16x13, .f32⟩
  | .hbm, ⟨7, _⟩ => ⟨S16x13, .f32⟩
  | .hbm, ⟨8, _⟩ => ⟨S_, .f32⟩
  | .hbm, ⟨9, _⟩ => ⟨S16x13, .f32⟩
  | .hbm, ⟨10, _⟩ => ⟨S16x13, .i1⟩
  | .hbm, ⟨11, _⟩ => ⟨S_, .f32⟩
  | .hbm, ⟨12, _⟩ => ⟨S16x13, .f32⟩
  | .hbm, ⟨13, _⟩ => ⟨S16x13, .f32⟩
  | .hbm, ⟨14, _⟩ => ⟨S16x13, .f32⟩
  | .hbm, ⟨15, _⟩ => ⟨S_, .f32⟩
  | .hbm, ⟨16, _⟩ => ⟨S_, .f32⟩
  | .hbm, ⟨17, _⟩ => ⟨S16x13, .f32⟩
  | .hbm, ⟨18, _⟩ => ⟨S16x13, .f32⟩
  | .hbm, ⟨19, _⟩ => ⟨S16x13, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .i1⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .i1⟩
  | .hbm, ⟨34, _⟩ => ⟨S_, .f32⟩
  | .hbm, ⟨35, _⟩ => ⟨S_, .f32⟩
  | .hbm, ⟨36, _⟩ => ⟨S_, .f32⟩
  | .local _ .vmem, ⟨0, _⟩ => ⟨S8x13x32x512, .f32⟩
  | .local _ .vmem, ⟨1, _⟩ => ⟨S8x13x32x512, .f32⟩
  | .local _ .vmem, ⟨2, _⟩ => ⟨S8x13x32x512, .f32⟩
  | .local _ .vmem, ⟨3, _⟩ => ⟨S8x13x32x512, .f32⟩
  | .local _ .vmem, ⟨4, _⟩ => ⟨S8x13, .f32⟩
  | .local _ .vmem, ⟨5, _⟩ => ⟨S8x13, .f32⟩
  | .local _ .vmem, ⟨6, _⟩ => ⟨S8x13, .f32⟩
  | .local _ .vmem, ⟨7, _⟩ => ⟨S8x13, .f32⟩
  | _, _ => ⟨S16x13x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_call0_v0 : Ref sig .tc := ⟨.hbm, 16, rfl⟩
abbrev main_call0_v1 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_cst_5 : Ref sig .tc := ⟨.hbm, 24, rfl⟩
abbrev main_v13 : Ref sig .tc := ⟨.hbm, 25, rfl⟩
abbrev main_cst_6 : Ref sig .tc := ⟨.hbm, 26, rfl⟩
abbrev main_v14 : Ref sig .tc := ⟨.hbm, 27, rfl⟩
abbrev main_v15 : Ref sig .tc := ⟨.hbm, 28, rfl⟩
abbrev main_cst_7 : Ref sig .tc := ⟨.hbm, 29, rfl⟩
abbrev main_call1_v0 : Ref sig .tc := ⟨.hbm, 30, rfl⟩
abbrev main_v16 : Ref sig .tc := ⟨.hbm, 31, rfl⟩
abbrev main_cst_8 : Ref sig .tc := ⟨.hbm, 32, rfl⟩
abbrev main_v17 : Ref sig .tc := ⟨.hbm, 33, rfl⟩
abbrev main_cst_9 : Ref sig .tc := ⟨.hbm, 34, rfl⟩
abbrev main_call2_v0 : Ref sig .tc := ⟨.hbm, 35, rfl⟩
abbrev main_v18 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x13x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x13x32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x13 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x13 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S8x13_S8x13_0_0 : ∀ a, (![0, 0] : Fin 2 → Nat) a + S8x13.size a ≤ S8x13.size a
  h_S8x13 : 0 < S8x13.numel
  inb_S8x13x32x512_S8x13x32x512_0_0_0_0 : ∀ a, (![0, 0, 0, 0] : Fin 4 → Nat) a + S8x13x32x512.size a ≤ S8x13x32x512.size a
  h_S8x13x32x512 : 0 < S8x13x32x512.numel
  natLt_1_32 : 1 < 32
  reduces_S8x13x32x512_S8x13x512 : S8x13x32x512.Reduces [2] S8x13x512
  reduces_S8x13x512_S8x13 : S8x13x512.Reduces [2] S8x13
  shapeCasts_S8x13_S8x13 : S8x13.ShapeCasts S8x13
  bcast_S_S16x13 : S_.BroadcastsInDim S16x13 (![] : Fin 0 → Fin S16x13.rank)
  reducesTo_S16x13_S_d0_1 : S16x13.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x13x32x512.size a ≤ S16x13x512x512.size a
  hwx0_0 : ∀ i : grid0.Coords, EltTy.bits .f32 = 32 ∨ (Rect.block (s := S16x13x512x512) S8x13x32x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x13x32x512.size a ≤ S16x13x512x512.size a
  hwx0_1 : ∀ i : grid0.Coords, EltTy.bits .f32 = 32 ∨ (Rect.block (s := S16x13x512x512) S8x13x32x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x13.size a ≤ S16x13.size a
  hwx0_2 : ∀ i : grid0.Coords, EltTy.bits .f32 = 32 ∨ (Rect.block (s := S16x13) S8x13.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x13.size a ≤ S16x13.size a
  hwx0_3 : ∀ i : grid0.Coords, EltTy.bits .f32 = 32 ∨ (Rect.block (s := S16x13) S8x13.size (cc0_transform_3 i) (hinb0_3 i)).WholeWords (EltTy.packing .f32)

variable [Facts₀]

abbrev win0_0 : Pipeline.Window sig grid0 :=
  Pipeline.Window.ofSpec (Memref.whole main_arg0) S8x13x32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x13x32x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S8x13.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S8x13.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x13x512x512 : Shape := ⟨4, ![16, 13, 512, 512]⟩
abbrev S_ : Shape := ⟨0, ![]⟩
abbrev S16x13 : Shape := ⟨2, ![16, 13]⟩

abbrev nBuf : Space → Nat
  | .hbm => 50
  | .vmem => 0
  | .smem => 0
  | _ => 0

abbrev bufTy : (tb : Table) → Fin (tcTables nBuf tb) → BufTy
  | .hbm, ⟨0, _⟩ => ⟨S16x13x512x512, .f32⟩
  | .hbm, ⟨1, _⟩ => ⟨S16x13x512x512, .f32⟩
  | .hbm, ⟨2, _⟩ => ⟨S_, .f32⟩
  | .hbm, ⟨3, _⟩ => ⟨S16x13x512x512, .f32⟩
  | .hbm, ⟨4, _⟩ => ⟨S16x13x512x512, .i1⟩
  | .hbm, ⟨5, _⟩ => ⟨S16x13x512x512, .i32⟩
  | .hbm, ⟨6, _⟩ => ⟨S_, .i32⟩
  | .hbm, ⟨7, _⟩ => ⟨S16x13, .i32⟩
  | .hbm, ⟨8, _⟩ => ⟨S16x13, .f32⟩
  | .hbm, ⟨9, _⟩ => ⟨S16x13x512x512, .f32⟩
  | .hbm, ⟨10, _⟩ => ⟨S16x13x512x512, .f32⟩
  | .hbm, ⟨11, _⟩ => ⟨S_, .f32⟩
  | .hbm, ⟨12, _⟩ => ⟨S_, .f32⟩
  | .hbm, ⟨13, _⟩ => ⟨S16x13x512x512, .f32⟩
  | .hbm, ⟨14, _⟩ => ⟨S16x13x512x512, .f32⟩
  | .hbm, ⟨15, _⟩ => ⟨S_, .f32⟩
  | .hbm, ⟨16, _⟩ => ⟨S16x13, .f32⟩
  | .hbm, ⟨17, _⟩ => ⟨S_, .f32⟩
  | .hbm, ⟨18, _⟩ => ⟨S16x13, .f32⟩
  | .hbm, ⟨19, _⟩ => ⟨S16x13, .f32⟩
  | .hbm, ⟨20, _⟩ => ⟨S16x13, .f32⟩
  | .hbm, ⟨21, _⟩ => ⟨S_, .f32⟩
  | .hbm, ⟨22, _⟩ => ⟨S16x13, .f32⟩
  | .hbm, ⟨23, _⟩ => ⟨S16x13, .i1⟩
  | .hbm, ⟨24, _⟩ => ⟨S_, .f32⟩
  | .hbm, ⟨25, _⟩ => ⟨S16x13, .f32⟩
  | .hbm, ⟨26, _⟩ => ⟨S16x13, .f32⟩
  | .hbm, ⟨27, _⟩ => ⟨S16x13, .f32⟩
  | .hbm, ⟨28, _⟩ => ⟨S_, .f32⟩
  | .hbm, ⟨29, _⟩ => ⟨S_, .f32⟩
  | .hbm, ⟨30, _⟩ => ⟨S16x13, .f32⟩
  | .hbm, ⟨31, _⟩ => ⟨S16x13, .f32⟩
  | .hbm, ⟨32, _⟩ => ⟨S16x13, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .i1⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .i1⟩
  | .hbm, ⟨47, _⟩ => ⟨S_, .f32⟩
  | .hbm, ⟨48, _⟩ => ⟨S_, .f32⟩
  | .hbm, ⟨49, _⟩ => ⟨S_, .f32⟩
  | _, _ => ⟨S16x13x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_call0_v0 : Ref sig .tc := ⟨.hbm, 12, rfl⟩
abbrev main_call0_v1 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_call1_v0 : Ref sig .tc := ⟨.hbm, 29, rfl⟩
abbrev main_call1_v1 : Ref sig .tc := ⟨.hbm, 30, rfl⟩
abbrev main_v17 : Ref sig .tc := ⟨.hbm, 31, rfl⟩
abbrev main_v18 : Ref sig .tc := ⟨.hbm, 32, rfl⟩
abbrev main_cst_6 : Ref sig .tc := ⟨.hbm, 33, rfl⟩
abbrev main_v19 : Ref sig .tc := ⟨.hbm, 34, rfl⟩
abbrev main_cst_7 : Ref sig .tc := ⟨.hbm, 35, rfl⟩
abbrev main_v20 : Ref sig .tc := ⟨.hbm, 36, rfl⟩
abbrev main_cst_8 : Ref sig .tc := ⟨.hbm, 37, rfl⟩
abbrev main_v21 : Ref sig .tc := ⟨.hbm, 38, rfl⟩
abbrev main_cst_9 : Ref sig .tc := ⟨.hbm, 39, rfl⟩
abbrev main_v22 : Ref sig .tc := ⟨.hbm, 40, rfl⟩
abbrev main_v23 : Ref sig .tc := ⟨.hbm, 41, rfl⟩
abbrev main_cst_10 : Ref sig .tc := ⟨.hbm, 42, rfl⟩
abbrev main_call2_v0 : Ref sig .tc := ⟨.hbm, 43, rfl⟩
abbrev main_v24 : Ref sig .tc := ⟨.hbm, 44, rfl⟩
abbrev main_cst_11 : Ref sig .tc := ⟨.hbm, 45, rfl⟩
abbrev main_v25 : Ref sig .tc := ⟨.hbm, 46, rfl⟩
abbrev main_cst_12 : Ref sig .tc := ⟨.hbm, 47, rfl⟩
abbrev main_call3_v0 : Ref sig .tc := ⟨.hbm, 48, rfl⟩
abbrev main_v26 : Ref sig .tc := ⟨.hbm, 49, rfl⟩

abbrev nD : Nat := 1
abbrev τ : Topo := Topo.v7x

variable {F : FTy → Type} [FloatOps F]

class Facts₀ : Prop where
  bcast_S_S16x13x512x512 : S_.BroadcastsInDim S16x13x512x512 (![] : Fin 0 → Fin S16x13x512x512.rank)
  natLt_1_32 : 1 < 32
  reducesTo_S16x13x512x512_S16x13_d2_3 : S16x13x512x512.ReducesTo [2, 3] S16x13
  h_S_ : 0 < S_.numel
  bcast_S_S16x13 : S_.BroadcastsInDim S16x13 (![] : Fin 0 → Fin S16x13.rank)
  reducesTo_S16x13_S_d0_1 : S16x13.ReducesTo [0, 1] S_

variable [Facts₀]

class Facts : Prop extends Facts₀ where

variable [Facts]
-- ==== Proof.Pieces.lean ====
/-
  What the kernel body leaves in its two accumulator blocks, case by case, as values.

  At the first point of a run (the band index is zero) the body stores zeros into both blocks, reads them back and
  adds the band's sums: it leaves `zeros + band`. At every later point it adds the band's sums to what the point before
  left. The body's stores cover each block whole, and its loads read whole buffers, so each block ends at the last
  store's payload of the loaded blocks.
-/
import proofs.«157886_j79731772883678_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem Idealize.ShloMosaic.Tactic
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz4 : (![0, 0, 0, 0] : Fin 4 → Nat) = fun _ => 0 := funext fun a => by fin_cases a <;> rfl

/-- A later point, the count's block: what the point before left plus the band's count. -/
theorem out_B_2 (c : Dev nD) (i : grid0.Coords) (a2 : Memref sig .tc .vmem S8x13x32x512 .f32) (h2 : a2.IsWhole)
    (a3 : Memref sig .tc .vmem S8x13x32x512 .f32) (h3 : a3.IsWhole) (a4 : Memref sig .tc .vmem S8x13 .f32) (h4 : a4.IsWhole)
    (a5 : Memref sig .tc .vmem S8x13 .f32) (h5 : a5.IsWhole) (hc : ¬cond0_0 i)
    (x0 x1 : Vec F S8x13x32x512 .f32) (xo2 xo3 : Vec F S8x13 .f32) :
    out0_B_2 c i a2 h2 a3 h3 a4 h4 a5 h5 hc x0 x1 xo2 xo3 = k0_pay4 x1 xo2 := by
  unfold out0_B_2
  rw [View.read_writes_eq_canon _ _ _ (cover0_B_2 c i a2 h2 a3 h3 a4 h4 a5 h5 hc x0 x1 xo2 xo3)]
  unfold kernelRun0_B
  dsimp only
  rw [View.canon_unit_zero hz2]
  simp only [View.readAt_eq_ld, h2.read_unread, h3.read_unread, h4.read_unread, h5.read_unread,
    View.ld_unit_zero (S := S8x13x32x512) hz4, View.ld_unit_zero (S := S8x13) hz2]

/-- A later point, the error's block: what the point before left plus the band's masked squared differences. -/
theorem out_B_3 (c : Dev nD) (i : grid0.Coords) (a2 : Memref sig .tc .vmem S8x13x32x512 .f32) (h2 : a2.IsWhole)
    (a3 : Memref sig .tc .vmem S8x13x32x512 .f32) (h3 : a3.IsWhole) (a4 : Memref sig .tc .vmem S8x13 .f32) (h4 : a4.IsWhole)
    (a5 : Memref sig .tc .vmem S8x13 .f32) (h5 : a5.IsWhole) (hc : ¬cond0_0 i)
    (x0 x1 : Vec F S8x13x32x512 .f32) (xo2 xo3 : Vec F S8x13 .f32) :
    out0_B_3 c i a2 h2 a3 h3 a4 h4 a5 h5 hc x0 x1 xo2 xo3 = k0_pay5 x0 x1 xo3 := by
  unfold out0_B_3
  rw [View.read_writes_eq_canon _ _ _ (cover0_B_3 c i a2 h2 a3 h3 a4 h4 a5 h5 hc x0 x1 xo2 xo3)]
  unfold kernelRun0_B
  dsimp only
  rw [View.canon_unit_zero hz2]
  simp only [View.readAt_eq_ld, h2.read_unread, h3.read_unread, h4.read_unread, h5.read_unread,
    View.ld_unit_zero (S := S8x13x32x512) hz4, View.ld_unit_zero (S := S8x13) hz2]

/-- The first point of a run, the count's block: the zeros just stored, read back, plus the band's count. -/
theorem out_A_2 (c : Dev nD) (i : grid0.Coords) (a2 : Memref sig .tc .vmem S8x13x32x512 .f32) (h2 : a2.IsWhole)
    (a3 : Memref sig .tc .vmem S8x13x32x512 .f32) (h3 : a3.IsWhole) (a4 : Memref sig .tc .vmem S8x13 .f32) (h4 : a4.IsWhole)
    (a5 : Memref sig .tc .vmem S8x13 .f32) (h5 : a5.IsWhole) (hc : cond0_0 i)
    (x0 x1 : Vec F S8x13x32x512 .f32) :
    out0_A_2 c i a2 h2 a3 h3 a4 h4 a5 h5 hc x0 x1 = k0_pay4 x1 (k0_pay1 (F := F)) := by
  unfold out0_A_2
  rw [View.read_writes_eq_canon _ _ _ (cover0_A_2 c i a2 h2 a3 h3 a4 h4 a5 h5 hc x0 x1)]
  unfold kernelRun0_A
  dsimp only
  sl_unfold_words
  rw [View.canon_cons_unit_zero (S := S8x13) hz2, View.readCov_unit_zero (S := S8x13) _ hz2]
  simp only [View.readAt_eq_ld, h2.read_unread, h3.read_unread,
    View.ld_unit_zero (S := S8x13x32x512) hz4, View.ld_unit_zero (S := S8x13) hz2]

/-- The first point of a run, the error's block: the zeros just stored, read back, plus the band's masked squared
    differences. -/
theorem out_A_3 (c : Dev nD) (i : grid0.Coords) (a2 : Memref sig .tc .vmem S8x13x32x512 .f32) (h2 : a2.IsWhole)
    (a3 : Memref sig .tc .vmem S8x13x32x512 .f32) (h3 : a3.IsWhole) (a4 : Memref sig .tc .vmem S8x13 .f32) (h4 : a4.IsWhole)
    (a5 : Memref sig .tc .vmem S8x13 .f32) (h5 : a5.IsWhole) (hc : cond0_0 i)
    (x0 x1 : Vec F S8x13x32x512 .f32) :
    out0_A_3 c i a2 h2 a3 h3 a4 h4 a5 h5 hc x0 x1 = k0_pay5 x0 x1 (k0_pay2 (F := F)) := by
  unfold out0_A_3
  rw [View.read_writes_eq_canon _ _ _ (cover0_A_3 c i a2 h2 a3 h3 a4 h4 a5 h5 hc x0 x1)]
  unfold kernelRun0_A
  dsimp only
  sl_unfold_words
  rw [View.canon_cons_unit_zero (S := S8x13) hz2, View.readCov_unit_zero (S := S8x13) _ hz2]
  simp only [View.readAt_eq_ld, h2.read_unread, h3.read_unread,
    View.ld_unit_zero (S := S8x13x32x512) hz4, View.ld_unit_zero (S := S8x13) hz2]

end Cert.KernelIdeal.Pieces

end
-- ==== Proof.LibBlockedSum.lean ====
/-
  Sums cut into consecutive blocks, for any extents: what a matrix product accumulated block by block along
  its contraction axis adds up to.

  * `sum_blocks`: a sum over `Fin (n * b)` is the sum over `n` consecutive blocks of `b` consecutive terms,
    block `p` holding the positions `p * b + q`, `q < b`. In any commutative additive monoid — so also on the
    extended reals, where it needs no finiteness: only commutativity and associativity of `+` are used.
  * `accum_eq_sum`: an accumulator that starts at zero and adds one summand per step holds, after `n` steps,
    the sum of the first `n` summands.
  * `accum_blocks`: the two together — accumulating the `n` block sums from zero gives the whole sum.
-/
import Mathlib.Algebra.BigOperators.Fin
import Mathlib.Algebra.BigOperators.Intervals
import Mathlib.Logic.Equiv.Fin.Basic

namespace Cert.LibBlockedSum

open Finset

variable {M : Type*} [AddCommMonoid M]

/-- A sum over `Fin (n * b)` cut into `n` consecutive blocks of `b`: position `p * b + q` is term `q` of block `p`. -/
theorem sum_blocks (n b : ℕ) (f : ℕ → M) :
    ∑ k : Fin (n * b), f k.val = ∑ p : Fin n, ∑ q : Fin b, f (p.val * b + q.val) := by
  rw [← Fintype.sum_prod_type' (f := fun (p : Fin n) (q : Fin b) => f (p.val * b + q.val))]
  refine (Fintype.sum_equiv finProdFinEquiv _ _ (fun x => ?_)).symm
  obtain ⟨p, q⟩ := x
  show f (p.val * b + q.val) = f ((finProdFinEquiv (p, q)).val)
  congr 1
  simp [finProdFinEquiv, Nat.mul_comm, Nat.add_comm]

/-- The accumulator after `j` steps: zero, then one summand added per step. -/
def accum (s : ℕ → M) : ℕ → M
  | 0 => 0
  | j + 1 => accum s j + s j

/-- After `n` steps the accumulator holds the sum of the first `n` summands. -/
theorem accum_eq_sum (s : ℕ → M) (n : ℕ) : accum s n = ∑ j ∈ range n, s j := by
  induction n with
  | zero => simp [accum]
  | succ n ih => rw [accum, ih, Finset.sum_range_succ]

/-- Accumulating the `n` block sums of a sum over `Fin (n * b)` from zero gives the whole sum. -/
theorem accum_blocks (n b : ℕ) (f : ℕ → M) :
    accum (fun p => ∑ q : Fin b, f (p * b + q.val)) n = ∑ k : Fin (n * b), f k.val := by
  rw [accum_eq_sum, sum_blocks, Finset.sum_range]

end Cert.LibBlockedSum
-- ==== Proof.LibMaskCount.lean ====
/-
  Counting with one-bit masks, on the extended reals.

  A comparison's result is a one-bit word. Widened to 32 bits and converted to a float, it is the number 0 or 1
  (`mask`); a value times that number is the value selected by the bit against zero, for every extended real,
  infinities included (`select_eq_mul`: only `x * 1 = x` and `x * 0 = 0` are used). A count taken the integer way —
  the bits widened to 32 bits, added up in 32-bit arithmetic, the sum converted to a float — is the sum of the masks
  as long as there are fewer than 2^31 of them: each term is at most one, so the 32-bit sum never wraps and its signed
  reading is its value (`toInt_fold_addi`). A finite sum of reals, cast to the extended reals, is the sum of the casts
  (`coe_sum`).
-/
import Idealize.ShloMosaic.PureOps.Ideal.Laws
import Idealize.ShloMosaic.Lib.ValueIdx

noncomputable section

open scoped BigOperators

namespace Cert.LibMaskCount

open Idealize.ShloMosaic Idealize.ShloMosaic.ValueIdx

/-- A comparison's bit as a number: widened to 32 bits and read as a signed integer. -/
def mask (b : BitVec 1) : EReal := (((b.setWidth 32).toInt : ℝ) : EReal)

theorem mask_one : mask 1#1 = 1 := by
  have h : ((1#1 : BitVec 1).setWidth 32).toInt = 1 := by decide
  unfold mask; rw [h]; norm_num

theorem mask_zero : mask 0#1 = 0 := by
  have h : ((0#1 : BitVec 1).setWidth 32).toInt = 0 := by decide
  unfold mask; rw [h]; norm_num

/-- The mask is the bit's value as a natural number. -/
theorem mask_eq_toNat (b : BitVec 1) : mask b = ((b.toNat : ℝ) : EReal) := by
  rcases BitVec.eq_zero_or_eq_one b with rfl | rfl
  · rw [mask_zero]; norm_num
  · rw [mask_one]; norm_num

/-- A value times the mask is the value selected by the bit against zero, on every extended real. -/
theorem select_eq_mul (b : BitVec 1) (d : EReal) : Scalar.select b d 0 = d * mask b := by
  rcases BitVec.eq_zero_or_eq_one b with rfl | rfl
  · rw [select_zero, mask_zero, mul_zero]
  · rw [select_one, mask_one, mul_one]

/-- A finite sum of reals among the extended reals is the sum of the casts. -/
theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- One-bit words widened to 32 bits and added up in 32 bits: the sum's value is the number of ones modulo 2^32. -/
theorem toNat_fold_addi {ι : Type*} (S : Finset ι) (b : ι → BitVec 1) :
    (S.fold IntOp.addi 0#32 (fun i => (b i).setWidth 32)).toNat = (∑ i ∈ S, (b i).toNat) % 2 ^ 32 := by
  classical
  induction S using Finset.induction_on with
  | empty => simp
  | insert a S ha ih =>
    rw [Finset.fold_insert ha, Finset.sum_insert ha]
    show ((b a).setWidth 32 + _).toNat = _
    rw [BitVec.toNat_add, ih, BitVec.toNat_setWidth]
    have : (b a).toNat < 2 := (b a).isLt
    omega

/-- Fewer than 2^31 one-bit words, each widened to 32 bits and added up in 32 bits: read as a signed integer and
    converted, the sum is the sum of the masks. -/
theorem toInt_fold_addi {ι : Type*} (S : Finset ι) (b : ι → BitVec 1) (hS : S.card < 2 ^ 31) :
    (((S.fold IntOp.addi 0#32 (fun i => (b i).setWidth 32)).toInt : ℝ) : EReal) = ∑ i ∈ S, mask (b i) := by
  have hle : ∑ i ∈ S, (b i).toNat ≤ S.card := by
    have := Finset.sum_le_card_nsmul S (fun i => (b i).toNat) 1 (fun i _ => by have := (b i).isLt; omega)
    simpa using this
  have hn := toNat_fold_addi S b
  rw [Nat.mod_eq_of_lt (by omega)] at hn
  have hi : (S.fold IntOp.addi 0#32 (fun i => (b i).setWidth 32)).toInt = ((∑ i ∈ S, (b i).toNat : ℕ) : ℤ) := by
    rw [BitVec.toInt_eq_toNat_of_lt (by omega), hn]
  rw [hi]
  simp only [mask_eq_toNat]
  rw [← coe_sum]
  norm_cast

end Cert.LibMaskCount

end
-- ==== Proof.Spec.lean ====
/-
  The mathematics of the per-channel masked squared error, with no program in sight.

  Both programs compute, for every sample `r` and channel `q`, two numbers over the 512 x 512 pixels of that
  channel: how many targets are positive, and the sum of the squared differences at those pixels; and then one
  and the same scalar function of the two [16, 13] tables (`tail`). A pixel's mask is the comparison's bit read as a
  number (`mask`): `1` where the target is positive, `0` elsewhere, so a squared difference times the mask is the
  squared difference selected by the comparison, on every extended real (`x * 1 = x`, `x * 0 = 0`, infinities included).

  * `tot T X Y r q`: the sum over the channel's 512 x 512 pixels of a pixel term `T` of the two entries.
  * `fold_blocks`: sixteen consecutive bands of 32 lines each, added one after the other, make the whole channel —
    a regrouping of a finite sum in a commutative monoid: no finiteness is needed.
  * the mask as a number, and the integer count that does not wrap, are in the module on counting with masks.
  * `filter_drop_eq`, `sum_filter_drop`, `card_filter_drop`: the indices that reduce to `(r, q)` along the two image
    axes are the 512 x 512 pixels `(r, q, k, w)`.
-/
import Idealize.ShloMosaic.PureOps.Ideal.Laws
import Idealize.ShloMosaic.Lib.ValueIdx
import proofs.«157886_j79731772883678_2_alg».proof.Proof.LibBlockedSum
import proofs.«157886_j79731772883678_2_alg».proof.Proof.LibMaskCount

noncomputable section

open scoped BigOperators

namespace Cert.Spec

open Idealize.ShloMosaic Idealize.ShloMosaic.ValueIdx

abbrev SArg : Shape := ⟨4, ![16, 13, 512, 512]⟩
abbrev SOut : Shape := ⟨2, ![16, 13]⟩
abbrev S0 : Shape := ⟨0, ![]⟩

/-! ## A pixel's terms -/

export Cert.LibMaskCount (mask mask_one mask_zero mask_eq_toNat select_eq_mul coe_sum toNat_fold_addi toInt_fold_addi)

/-- Is the target positive? -/
def valid (y : EReal) : BitVec 1 := Ideal.cmp .ogt y (Ideal.ofBits .f32 0x00000000#32)

/-- The count's pixel term: the mask of the target. -/
def cntTerm (_x y : EReal) : EReal := mask (valid y)

/-- The error's pixel term: the squared difference, masked. -/
def sqTerm (x y : EReal) : EReal := (x - y) * (x - y) * mask (valid y)

/-! ## A channel's total -/

/-- The sum of the pixel term over the 512 x 512 pixels of sample `r`, channel `q`. -/
def tot (T : EReal → EReal → EReal) (X Y : SArg.Idx → EReal) (r : Fin 16) (q : Fin 13) : EReal :=
  ∑ k : Fin 512, ∑ w : Fin 512, T (X (ix4 r q k w)) (Y (ix4 r q k w))

theorem tot_def (T : EReal → EReal → EReal) (X Y : SArg.Idx → EReal) (r : Fin 16) (q : Fin 13) :
    tot T X Y r q = ∑ k : Fin 512, ∑ w : Fin 512, T (X (ix4 r q k w)) (Y (ix4 r q k w)) := rfl

/-- The two tables. -/
def cntG (X Y : SArg.Idx → EReal) : SOut.Idx → EReal := fun i => tot cntTerm X Y (i 0) (i 1)
def sqG (X Y : SArg.Idx → EReal) : SOut.Idx → EReal := fun i => tot sqTerm X Y (i 0) (i 1)

/-! ## Bands of lines -/

/-- A natural number as a sample index and as a line index (reduced into range; used in range only). -/
def fin16 (a : ℕ) : Fin 16 := ⟨a % 16, Nat.mod_lt _ (by decide)⟩
def fin512 (a : ℕ) : Fin 512 := ⟨a % 512, Nat.mod_lt _ (by decide)⟩

theorem fin512_val (k : Fin 512) : fin512 k.val = k := Fin.ext (Nat.mod_eq_of_lt k.isLt)

/-- One line's sum. -/
def lineSum (T : EReal → EReal → EReal) (X Y : SArg.Idx → EReal) (r : Fin 16) (q : Fin 13) (k : ℕ) : EReal :=
  ∑ w : Fin 512, T (X (ix4 r q (fin512 k) w)) (Y (ix4 r q (fin512 k) w))

theorem tot_eq_lines (T : EReal → EReal → EReal) (X Y : SArg.Idx → EReal) (r : Fin 16) (q : Fin 13) :
    tot T X Y r q = ∑ k : Fin 512, lineSum T X Y r q k.val :=
  Finset.sum_congr rfl fun k _ => by unfold lineSum; rw [fin512_val]

/-- What grid point `n` adds at entry `(p, q)` of its [8, 13] block: the band of 32 lines number `n % 16` of sample
    `8 * (n / 16) + p`, channel `q`. -/
def addend (T : EReal → EReal → EReal) (X Y : SArg.Idx → EReal) (n : ℕ) (p : Fin 8) (q : Fin 13) : EReal :=
  ∑ h : Fin 32, lineSum T X Y (fin16 (8 * (n / 16) + p.val)) q ((n % 16) * 32 + h.val)

/-- The sixteen bands of a run of grid points make the whole channel. -/
theorem fold_blocks (T : EReal → EReal → EReal) (X Y : SArg.Idx → EReal) (i : ℕ) (p : Fin 8) (q : Fin 13) :
    ∑ s ∈ Finset.range 16, addend T X Y (16 * i + s) p q = tot T X Y (fin16 (8 * i + p.val)) q := by
  rw [tot_eq_lines]
  have e := Cert.LibBlockedSum.sum_blocks 16 32 (lineSum T X Y (fin16 (8 * i + p.val)) q)
  refine Eq.trans ?_ e.symm
  rw [← Finset.sum_range (fun a => ∑ b : Fin 32, lineSum T X Y (fin16 (8 * i + p.val)) q (a * 32 + b.val))]
  refine Finset.sum_congr rfl fun s hs => ?_
  have hs' : s < 16 := Finset.mem_range.mp hs
  unfold addend
  rw [show (16 * i + s) / 16 = i by omega, show (16 * i + s) % 16 = s by omega]

/-! ## The pixels of one channel -/

/-- Pixel `(k, w)` of sample `r`, channel `q`. -/
def pixel (r : Fin 16) (q : Fin 13) : Fin 512 × Fin 512 ↪ SArg.Idx :=
  ⟨fun kw => ix4 r q kw.1 kw.2, fun a b h => Prod.ext (congrFun h 2) (congrFun h 3)⟩

/-- The indices that reduce to `(r, q)` along the two image axes are that channel's pixels. -/
theorem filter_drop_eq (h' : SArg.ReducesTo [2, 3] SOut) (r : Fin 16) (q : Fin 13) :
    Finset.univ.filter (fun i : SArg.Idx => h'.drop i = ix2 r q) = Finset.univ.map (pixel r q) := by
  ext i
  simp only [Finset.mem_filter, Finset.mem_univ, true_and, Finset.mem_map]
  constructor
  · intro h
    have h0 : (i 0 : ℕ) = r.val := by
      have e := h'.drop_apply_val_of_eq i 0 0
      rw [h] at e; exact e.symm
    have h1 : (i 1 : ℕ) = q.val := by
      have e := h'.drop_apply_val_of_eq i 1 1
      rw [h] at e; exact e.symm
    refine ⟨(i 2, i 3), ?_⟩
    funext a
    match a with
    | ⟨0, _⟩ => exact Fin.ext h0.symm
    | ⟨1, _⟩ => exact Fin.ext h1.symm
    | ⟨2, _⟩ => rfl
    | ⟨3, _⟩ => rfl
  · rintro ⟨kw, rfl⟩
    funext b
    match b with
    | ⟨0, _⟩ => exact Fin.ext (h'.drop_apply_val_of_eq _ 0 0)
    | ⟨1, _⟩ => exact Fin.ext (h'.drop_apply_val_of_eq _ 1 1)

/-- A sum over the indices that reduce to `(r, q)` is the sum over the channel's lines and columns. -/
theorem sum_filter_drop (h' : SArg.ReducesTo [2, 3] SOut) (x : SArg.Idx → EReal) (r : Fin 16) (q : Fin 13) :
    ∑ i ∈ Finset.univ.filter (fun i : SArg.Idx => h'.drop i = ix2 r q), x i
      = ∑ k : Fin 512, ∑ w : Fin 512, x (ix4 r q k w) := by
  rw [filter_drop_eq, Finset.sum_map, Fintype.sum_prod_type]
  rfl

theorem card_filter_drop (h' : SArg.ReducesTo [2, 3] SOut) (r : Fin 16) (q : Fin 13) :
    (Finset.univ.filter (fun i : SArg.Idx => h'.drop i = ix2 r q)).card = 512 * 512 := by
  rw [filter_drop_eq, Finset.card_map, Finset.card_univ, Fintype.card_prod, Fintype.card_fin]

/-! ## The scalar both programs compute from the two tables -/

section Tail

variable {F : FTy → Type} [FloatOps F]
variable (hb : S0.BroadcastsInDim SOut (![] : Fin S0.rank → Fin SOut.rank)) (hr : SOut.ReducesTo [0, 1] S0) (h0 : 0 < S0.numel)

/-- The weight of a channel: the square root of its fraction of positive targets. -/
def weight (cnt : FVec F SOut .f32) : FVec F SOut .f32 :=
  Host.sqrt (Host.divf cnt (broadcastInDim SOut ![] hb (constant S0 .f32 0x48800000#32)))

/-- The weights' sum. -/
def totalWeight (cnt : FVec F SOut .f32) : FVec F S0 .f32 :=
  Host.reduceAdd (weight hb cnt) (constant S0 .f32 0x00000000#32) hr h0

/-- A channel's mean squared error over its positive targets (zero when it has none). -/
def mse (cnt err : FVec F SOut .f32) : FVec F SOut .f32 :=
  select (cmpf .ogt cnt (broadcastInDim SOut ![] hb (constant S0 .f32 0x00000000#32)))
    (Host.divf err (maximumf cnt (broadcastInDim SOut ![] hb (constant S0 .f32 0x3F800000#32))))
    (broadcastInDim SOut ![] hb (id (constant S0 .f32 0x00000000#32)))

/-- The weighted errors' sum. -/
def totalLoss (cnt err : FVec F SOut .f32) : FVec F S0 .f32 :=
  Host.reduceAdd (mulf (mse hb cnt err) (weight hb cnt)) (constant S0 .f32 0x00000000#32) hr h0

/-- The loss: the weighted mean of the channels' errors, zero when no target is positive. -/
def tail (cnt err : FVec F SOut .f32) : FVec F S0 .f32 :=
  select (cmpf .ogt (totalWeight hb hr h0 cnt) (constant S0 .f32 0x00000000#32))
    (select (cmpf .ogt (totalWeight hb hr h0 cnt) (constant S0 .f32 0x00000000#32))
      (Host.divf (totalLoss hb hr h0 cnt err) (maximumf (totalWeight hb hr h0 cnt) (constant S0 .f32 0x0DA24260#32)))
      (id (constant S0 .f32 0x00000000#32)))
    (id (constant S0 .f32 0x00000000#32))

end Tail

-- A channel's total is a sum of 2^18 terms: from here on it is read through `tot_def` only, never by unfolding.
attribute [irreducible] tot

end Cert.Spec

end
-- ==== Proof.Payload.lean ====
/-
  The body's arithmetic, read at one entry of its [8, 13] accumulator blocks, on the extended reals.

  The count's payload adds to the accumulator the sum, over the band's 512 columns and then its 32 lines, of the
  masks of the loaded target block; the error's payload adds the same sum of the masked squared differences of the
  two loaded blocks. Each of the two reductions runs over one axis, so it is a plain finite sum over that axis.
-/
import proofs.«157886_j79731772883678_2_alg».proof.Proof.Gen.KernelIdeal.Skeleton
import proofs.«157886_j79731772883678_2_alg».proof.Proof.Spec
import Idealize.ShloMosaic.PureOps.Ideal.Laws
import Idealize.ShloMosaic.Lib.Pipeline.Value

noncomputable section

open scoped BigOperators

namespace Cert.KernelIdeal.Payload

open Cert.KernelIdeal Cert.KernelIdeal.Gen Cert.Spec Idealize.ShloMosaic Idealize.ShloMosaic.ValueIdx

/-- The sum over a band's 32 lines, at sample `p`, channel `q`, column `w`. -/
theorem sum_lines (src : FVec Ideal S8x13x32x512 .f32) (h : S8x13x32x512.Reduces [2] S8x13x512) (hφ : FKind.Formats .f32)
    (hacc : (0x00000000#32 : BitVec 32) = FKind.add.neutral .f32 hφ) (p : Fin 8) (q : Fin 13) (w : Fin 512) :
    multiReduction .add [2] S8x13x512 src 0x00000000#32 h hφ hacc (ix3 p q w) = ∑ k : Fin 32, src (ix4 p q k w) := by
  refine (Ideal.multiReduction_add_single src 0x00000000#32 h hφ hacc (ix3 p q w)).trans ?_
  refine Finset.sum_congr rfl fun k _ => congrArg src ?_
  funext a
  match a with
  | ⟨0, _⟩ => rfl
  | ⟨1, _⟩ => rfl
  | ⟨2, _⟩ => rfl
  | ⟨3, _⟩ => rfl

/-- The sum over the 512 columns, at sample `p`, channel `q`. -/
theorem sum_cols (src : FVec Ideal S8x13x512 .f32) (h : S8x13x512.Reduces [2] S8x13) (hφ : FKind.Formats .f32)
    (hacc : (0x00000000#32 : BitVec 32) = FKind.add.neutral .f32 hφ) (p : Fin 8) (q : Fin 13) :
    multiReduction .add [2] S8x13 src 0x00000000#32 h hφ hacc (ix2 p q) = ∑ w : Fin 512, src (ix3 p q w) := by
  refine (Ideal.multiReduction_add_single src 0x00000000#32 h hφ hacc (ix2 p q)).trans ?_
  refine Finset.sum_congr rfl fun w _ => congrArg src ?_
  funext a
  match a with
  | ⟨0, _⟩ => rfl
  | ⟨1, _⟩ => rfl
  | ⟨2, _⟩ => rfl

/-- The zeros the first point of a run stores. -/
theorem zeros2_apply (i : S8x13.Idx) : k0_pay1 (F := Ideal) i = 0 := Ideal.ofBits_zero_f32
theorem zeros3_apply (i : S8x13.Idx) : k0_pay2 (F := Ideal) i = 0 := Ideal.ofBits_zero_f32

/-- The count's payload at `(p, q)`: the accumulator plus the band's masks, columns outside, lines inside (the
    count's pixel term does not read the first block: any `x0` will do). -/
theorem count_apply (x0 x1 : Vec Ideal S8x13x32x512 .f32) (acc : Vec Ideal S8x13 .f32) (p : Fin 8) (q : Fin 13) :
    k0_pay4 x1 acc (ix2 p q)
      = acc (ix2 p q) + ∑ w : Fin 512, ∑ k : Fin 32, cntTerm (x0 (ix4 p q k w)) (x1 (ix4 p q k w)) := by
  unfold k0_pay4
  show shapeCast S8x13 acc shapeCasts_S8x13_S8x13 (ix2 p q)
      + multiReduction .add [2] S8x13 (multiReduction .add [2] S8x13x512 (k0_pay3 x1) 0x00000000#32
          reduces_S8x13x32x512_S8x13x512 (.inl rfl) rfl) 0x00000000#32 reduces_S8x13x512_S8x13 (.inl rfl) rfl (ix2 p q) = _
  refine congrArg₂ (· + ·) (congrFun (shapeCast_self acc _) _) ?_
  refine (sum_cols _ reduces_S8x13x512_S8x13 (.inl rfl) rfl p q).trans ?_
  refine Finset.sum_congr rfl fun w _ => ?_
  refine (sum_lines _ reduces_S8x13x32x512_S8x13x512 (.inl rfl) rfl p q w).trans ?_
  rfl

/-- The error's payload at `(p, q)`: the accumulator plus the band's masked squared differences. -/
theorem error_apply (x0 x1 : Vec Ideal S8x13x32x512 .f32) (acc : Vec Ideal S8x13 .f32) (p : Fin 8) (q : Fin 13) :
    k0_pay5 x0 x1 acc (ix2 p q)
      = acc (ix2 p q) + ∑ w : Fin 512, ∑ k : Fin 32, sqTerm (x0 (ix4 p q k w)) (x1 (ix4 p q k w)) := by
  unfold k0_pay5
  show shapeCast S8x13 acc shapeCasts_S8x13_S8x13 (ix2 p q)
      + multiReduction .add [2] S8x13 (multiReduction .add [2] S8x13x512
          (mulf (mulf (subf x0 x1) (subf x0 x1)) (k0_pay3 x1)) 0x00000000#32
          reduces_S8x13x32x512_S8x13x512 (.inl rfl) rfl) 0x00000000#32 reduces_S8x13x512_S8x13 (.inl rfl) rfl (ix2 p q) = _
  refine congrArg₂ (· + ·) (congrFun (shapeCast_self acc _) _) ?_
  refine (sum_cols _ reduces_S8x13x512_S8x13 (.inl rfl) rfl p q).trans ?_
  refine Finset.sum_congr rfl fun w _ => ?_
  refine (sum_lines _ reduces_S8x13x32x512_S8x13x512 (.inl rfl) rfl p q w).trans ?_
  rfl

end Cert.KernelIdeal.Payload

end
-- ==== Proof.Bands.lean ====
/-
  The kernel's result, read off its frame run, on the extended reals.

  The grid is 2 x 16: point `t` works on samples `8 * (t / 16) .. 8 * (t / 16) + 7` and on the band of 32 lines number
  `t % 16`. The two [8, 13] accumulator blocks are reset at the first point of each run of sixteen and written back
  after its last, so what is written back for sample block `t / 16` is zero plus the sixteen bands' sums, added in
  point order: by regrouping, the totals over all 512 lines (`Spec.fold_blocks`). The two written-back blocks tile the
  two [16, 13] tables. The host operations after the region are the scalar function `Spec.tail` of the two tables.
-/
import proofs.«157886_j79731772883678_2_alg».proof.Proof.Pieces
import proofs.«157886_j79731772883678_2_alg».proof.Proof.Payload
import Idealize.ShloMosaic.Lib.Pipeline.Value
import Idealize.ShloMosaic.Lib.StableHlo.Run
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.Spec

variable (m : (ℓ : Loc nD τ sig) → Buf (Elt Ideal) ℓ) (ρ : Dev nD → PrngReg)

theorem N32 : cfg0.N = 32 := N_0

/-- The two argument arrays as the region finds them. -/
abbrev X (c : Dev nD) : SArg.Idx → EReal := V m c main_arg0
abbrev Y (c : Dev nD) : SArg.Idx → EReal := V m c main_arg1

/-- The printed index maps, decided over the grid: the sample block is `t / 16`, the band `t % 16`. -/
theorem idx_facts : ∀ t : Fin cfg0.N,
    win0_0.index t (0 : Fin 4) = t.val / 16 ∧ win0_0.index t (1 : Fin 4) = 0
    ∧ win0_0.index t (2 : Fin 4) = t.val % 16 ∧ win0_0.index t (3 : Fin 4) = 0
    ∧ win0_1.index t (0 : Fin 4) = t.val / 16 ∧ win0_1.index t (1 : Fin 4) = 0
    ∧ win0_1.index t (2 : Fin 4) = t.val % 16 ∧ win0_1.index t (3 : Fin 4) = 0
    ∧ win0_2.index t (0 : Fin 2) = t.val / 16 ∧ win0_2.index t (1 : Fin 2) = 0
    ∧ win0_3.index t (0 : Fin 2) = t.val / 16 ∧ win0_3.index t (1 : Fin 2) = 0 :=
  (by decide +kernel : ∀ t : Fin grid0.N, _)

/-! ## The input blocks, read where they sit in the arrays -/

theorem blk0_apply (c : Dev nD) (t : Fin cfg0.N) (p : Fin 8) (q : Fin 13) (k : Fin 32) (w : Fin 512) :
    (iblk m c 0 t : Vec Ideal S8x13x32x512 .f32) (ix4 p q k w)
      = X m c (ix4 (fin16 (8 * (t.val / 16) + p.val)) q (fin512 ((t.val % 16) * 32 + k.val)) w) := by
  obtain ⟨e0, e1, e2, e3, -⟩ := idx_facts t
  have hN : t.val < 32 := lt_of_lt_of_eq t.isLt N32
  unfold iblk
  rw [View.read_apply]
  show V m c main_arg0 _ = V m c main_arg0 _
  refine congrArg (V m c main_arg0) ?_
  funext a
  apply Fin.ext
  match a with
  | ⟨0, _⟩ =>
    show win0_0.index t (0 : Fin 4) * 8 + 1 * p.val = (8 * (t.val / 16) + p.val) % 16
    rw [e0]; have := p.isLt; omega
  | ⟨1, _⟩ =>
    show win0_0.index t (1 : Fin 4) * 13 + 1 * q.val = q.val
    rw [e1]; omega
  | ⟨2, _⟩ =>
    show win0_0.index t (2 : Fin 4) * 32 + 1 * k.val = ((t.val % 16) * 32 + k.val) % 512
    rw [e2]; have := k.isLt; omega
  | ⟨3, _⟩ =>
    show win0_0.index t (3 : Fin 4) * 512 + 1 * w.val = w.val
    rw [e3]; omega

theorem blk1_apply (c : Dev nD) (t : Fin cfg0.N) (p : Fin 8) (q : Fin 13) (k : Fin 32) (w : Fin 512) :
    (iblk m c 1 t : Vec Ideal S8x13x32x512 .f32) (ix4 p q k w)
      = Y m c (ix4 (fin16 (8 * (t.val / 16) + p.val)) q (fin512 ((t.val % 16) * 32 + k.val)) w) := by
  obtain ⟨-, -, -, -, e0, e1, e2, e3, -⟩ := idx_facts t
  have hN : t.val < 32 := lt_of_lt_of_eq t.isLt N32
  unfold iblk
  rw [View.read_apply]
  show V m c main_arg1 _ = V m c main_arg1 _
  refine congrArg (V m c main_arg1) ?_
  funext a
  apply Fin.ext
  match a with
  | ⟨0, _⟩ =>
    show win0_1.index t (0 : Fin 4) * 8 + 1 * p.val = (8 * (t.val / 16) + p.val) % 16
    rw [e0]; have := p.isLt; omega
  | ⟨1, _⟩ =>
    show win0_1.index t (1 : Fin 4) * 13 + 1 * q.val = q.val
    rw [e1]; omega
  | ⟨2, _⟩ =>
    show win0_1.index t (2 : Fin 4) * 32 + 1 * k.val = ((t.val % 16) * 32 + k.val) % 512
    rw [e2]; have := k.isLt; omega
  | ⟨3, _⟩ =>
    show win0_1.index t (3 : Fin 4) * 512 + 1 * w.val = w.val
    rw [e3]; omega

/-- A band's sum over the two loaded blocks is the point's addend of the two arrays. -/
theorem band_eq (T : EReal → EReal → EReal) (c : Dev nD) (t : Fin cfg0.N) (p : Fin 8) (q : Fin 13) :
    ∑ w : Fin 512, ∑ k : Fin 32, T ((iblk m c 0 t : Vec Ideal S8x13x32x512 .f32) (ix4 p q k w))
        ((iblk m c 1 t : Vec Ideal S8x13x32x512 .f32) (ix4 p q k w))
      = addend T (X m c) (Y m c) t.val p q := by
  rw [Finset.sum_comm]
  unfold addend lineSum
  refine Finset.sum_congr rfl fun k _ => Finset.sum_congr rfl fun w _ => ?_
  rw [blk0_apply, blk1_apply]

end Cert.KernelIdeal.KValue

end
-- ==== Proof.Accum.lean ====
/-
  What the two accumulator blocks hold after each grid point: zero plus the bands added so far in the point's run.

  The frame's own account of the blocks resets them at the points divisible by 16 and steps them from the point before
  elsewhere. With the body's two cases read as payloads, and the payloads read at an entry, each block is a fold that
  starts from `0 + band` and adds one band per point: at offset `j` of its run, zero plus the sum of the bands
  `0 .. j` of the run's sample block.
-/
import proofs.«157886_j79731772883678_2_alg».proof.Proof.Bands

noncomputable section

open scoped BigOperators
open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.Spec

variable (m : (ℓ : Loc nD τ sig) → Buf (Elt Ideal) ℓ) (ρ : Dev nD → PrngReg)

/-! ## The count -/

/-- The count's block after point `n`. -/
def cntAt (c : Dev nD) (n : ℕ) (h : n < cfg0.N) : S8x13.Idx → EReal := (outsAt0 m c n h).1
/-- What the first point of a run leaves, and how a later point steps. -/
def cntReset (c : Dev nD) (n : ℕ) (h : n < cfg0.N) : S8x13.Idx → EReal :=
  k0_pay4 (iblk m c 1 ⟨n, h⟩ : Vec Ideal S8x13x32x512 .f32) (k0_pay1 (F := Ideal))
def cntStep (c : Dev nD) (n : ℕ) (h : n < cfg0.N) (acc : S8x13.Idx → EReal) : S8x13.Idx → EReal :=
  k0_pay4 (iblk m c 1 ⟨n, h⟩ : Vec Ideal S8x13x32x512 .f32) acc

theorem cnt_reset (c : Dev nD) (n : ℕ) (h : n < cfg0.N) (hm : n % 16 = 0) : cntAt m c n h = cntReset m c n h := by
  unfold cntAt cntReset
  rw [outsAt0_A m c ⟨n, h⟩ hm]
  dsimp only
  exact Pieces.out_A_2 (F := Ideal) ..

theorem cnt_step (c : Dev nD) (n : ℕ) (h : n + 1 < cfg0.N) (hm : ¬(n + 1) % 16 = 0) :
    cntAt m c (n + 1) h = cntStep m c (n + 1) h (cntAt m c n (Nat.lt_of_succ_lt h)) := by
  unfold cntAt cntStep
  rw [outsAt0_B m c ⟨n + 1, h⟩ hm]
  dsimp only
  exact Pieces.out_B_2 (F := Ideal) ..

/-- The count's block after point `t`, at `(p, q)`: zero plus the bands of its run up to `t`. -/
theorem cntAt_apply (c : Dev nD) (t : Fin cfg0.N) (p : Fin 8) (q : Fin 13) :
    cntAt m c t.val t.isLt (ix2 p q)
      = 0 + ∑ s ∈ Finset.range (t.val % 16 + 1), addend cntTerm (X m c) (Y m c) (16 * (t.val / 16) + s) p q := by
  have hN : t.val < 32 := lt_of_lt_of_eq t.isLt N32
  have h' : 16 * (t.val / 16) + t.val % 16 < cfg0.N := by rw [Nat.div_add_mod]; exact t.isLt
  rw [Pipeline.eq_accAt_of_mod (cntAt m c) 16 (cntReset m c) (cntStep m c) (cnt_reset m c) (cnt_step m c) (by decide)
    t.val t.isLt h']
  refine Pipeline.accAt_add_apply (cntReset m c) (cntStep m c) (fun _ => 0)
    (fun n i => addend cntTerm (X m c) (Y m c) n (i 0) (i 1)) (16 * (t.val / 16)) 15 ?_ ?_ (t.val % 16) (by omega) h' (ix2 p q)
  · intro h i
    obtain ⟨p, q, rfl⟩ : ∃ (p : Fin 8) (q : Fin 13), i = ix2 p q := ⟨i 0, i 1, eq_ix2 i⟩
    unfold cntReset
    rw [Payload.count_apply (iblk m c 0 ⟨16 * (t.val / 16), h⟩ : Vec Ideal S8x13x32x512 .f32), Payload.zeros2_apply,
      band_eq m cntTerm c ⟨16 * (t.val / 16), h⟩ p q]
  · intro n h acc i _ _
    obtain ⟨p, q, rfl⟩ : ∃ (p : Fin 8) (q : Fin 13), i = ix2 p q := ⟨i 0, i 1, eq_ix2 i⟩
    unfold cntStep
    rw [Payload.count_apply (iblk m c 0 ⟨n, h⟩ : Vec Ideal S8x13x32x512 .f32), band_eq m cntTerm c ⟨n, h⟩ p q]

/-! ## The error -/

/-- The error's block after point `n`. -/
def errAt (c : Dev nD) (n : ℕ) (h : n < cfg0.N) : S8x13.Idx → EReal := (outsAt0 m c n h).2
def errReset (c : Dev nD) (n : ℕ) (h : n < cfg0.N) : S8x13.Idx → EReal :=
  k0_pay5 (iblk m c 0 ⟨n, h⟩ : Vec Ideal S8x13x32x512 .f32) (iblk m c 1 ⟨n, h⟩ : Vec Ideal S8x13x32x512 .f32) (k0_pay2 (F := Ideal))
def errStep (c : Dev nD) (n : ℕ) (h : n < cfg0.N) (acc : S8x13.Idx → EReal) : S8x13.Idx → EReal :=
  k0_pay5 (iblk m c 0 ⟨n, h⟩ : Vec Ideal S8x13x32x512 .f32) (iblk m c 1 ⟨n, h⟩ : Vec Ideal S8x13x32x512 .f32) acc

theorem err_reset (c : Dev nD) (n : ℕ) (h : n < cfg0.N) (hm : n % 16 = 0) : errAt m c n h = errReset m c n h := by
  unfold errAt errReset
  rw [outsAt0_A m c ⟨n, h⟩ hm]
  dsimp only
  exact Pieces.out_A_3 (F := Ideal) ..

theorem err_step (c : Dev nD) (n : ℕ) (h : n + 1 < cfg0.N) (hm : ¬(n + 1) % 16 = 0) :
    errAt m c (n + 1) h = errStep m c (n + 1) h (errAt m c n (Nat.lt_of_succ_lt h)) := by
  unfold errAt errStep
  rw [outsAt0_B m c ⟨n + 1, h⟩ hm]
  dsimp only
  exact Pieces.out_B_3 (F := Ideal) ..

/-- The error's block after point `t`, at `(p, q)`: zero plus the bands of its run up to `t`. -/
theorem errAt_apply (c : Dev nD) (t : Fin cfg0.N) (p : Fin 8) (q : Fin 13) :
    errAt m c t.val t.isLt (ix2 p q)
      = 0 + ∑ s ∈ Finset.range (t.val % 16 + 1), addend sqTerm (X m c) (Y m c) (16 * (t.val / 16) + s) p q := by
  have hN : t.val < 32 := lt_of_lt_of_eq t.isLt N32
  have h' : 16 * (t.val / 16) + t.val % 16 < cfg0.N := by rw [Nat.div_add_mod]; exact t.isLt
  rw [Pipeline.eq_accAt_of_mod (errAt m c) 16 (errReset m c) (errStep m c) (err_reset m c) (err_step m c) (by decide)
    t.val t.isLt h']
  refine Pipeline.accAt_add_apply (errReset m c) (errStep m c) (fun _ => 0)
    (fun n i => addend sqTerm (X m c) (Y m c) n (i 0) (i 1)) (16 * (t.val / 16)) 15 ?_ ?_ (t.val % 16) (by omega) h' (ix2 p q)
  · intro h i
    obtain ⟨p, q, rfl⟩ : ∃ (p : Fin 8) (q : Fin 13), i = ix2 p q := ⟨i 0, i 1, eq_ix2 i⟩
    unfold errReset
    rw [Payload.error_apply, Payload.zeros3_apply, band_eq m sqTerm c ⟨16 * (t.val / 16), h⟩ p q]
  · intro n h acc i _ _
    obtain ⟨p, q, rfl⟩ : ∃ (p : Fin 8) (q : Fin 13), i = ix2 p q := ⟨i 0, i 1, eq_ix2 i⟩
    unfold errStep
    rw [Payload.error_apply, band_eq m sqTerm c ⟨n, h⟩ p q]

end Cert.KernelIdeal.KValue

end
-- ==== Proof.Tables.lean ====
/-
  The two [16, 13] tables after the run: the channel totals.

  Each table's blocks are written back after the last point of each run of sixteen, holding zero plus the run's
  sixteen bands, which is the whole channel's total; block `t / 16` sits at samples `8 * (t / 16) ..`, so the two
  written-back blocks tile the table.
-/
import proofs.«157886_j79731772883678_2_alg».proof.Proof.Accum

noncomputable section

open scoped BigOperators
open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.Spec

variable (m : (ℓ : Loc nD τ sig) → Buf (Elt Ideal) ℓ) (ρ : Dev nD → PrngReg)

/-! ## The cnt table (window 2) -/

/-- What a point writes back, read entry by entry: if the accumulator block holds, at every `(p, q)`, the table `G` at
    the entry's place in the array, then the written-back block is that block of `G`. -/
theorem cnt_flushed_of (c : Dev nD) (t : Fin cfg0.N) (G : S16x13.Idx → EReal)
    (hG : ∀ (p : Fin 8) (q : Fin 13),
      (outsAt0 m c t.val t.isLt).1 (ix2 p q) = G (((cfg0.win 2).blk t).view.emb (ix2 p q))) :
    (dats m 0 c).flushed 2 t = ((cfg0.win 2).blk t).view.read (Elt Ideal) G := by
  show (cfg0.win 2).cut (grid0.coords t) ((dats m 0 c).after 2 t) = _
  rw [after0_2]
  refine funext fun (y : S8x13.Idx) => ?_
  obtain ⟨p, q, rfl⟩ : ∃ (p : Fin 8) (q : Fin 13), y = ix2 p q := ⟨y 0, y 1, eq_ix2 y⟩
  rw [View.read_apply]
  exact hG p q

/-- Where entry `(p, q)` of point `t`'s block sits in the table: sample `8 * (t / 16) + p`, channel `q`. -/
theorem cnt_emb (t : Fin cfg0.N) (p : Fin 8) (q : Fin 13) :
    ((cfg0.win 2).blk t).view.emb (ix2 p q) = (ix2 (fin16 (8 * (t.val / 16) + p.val)) q : S16x13.Idx) := by
  have hN : t.val < 32 := lt_of_lt_of_eq t.isLt N32
  obtain ⟨-, -, -, -, -, -, -, -, e0, e1, -, -⟩ := idx_facts t
  funext a
  apply Fin.ext
  match a with
  | ⟨0, _⟩ =>
    show win0_2.index t (0 : Fin 2) * 8 + 1 * p.val = (8 * (t.val / 16) + p.val) % 16
    rw [e0]; have := p.isLt; omega
  | ⟨1, _⟩ =>
    show win0_2.index t (1 : Fin 2) * 13 + 1 * q.val = q.val
    rw [e1]; omega

/-- What a flushing point writes back is its block of the table of channel totals. -/
theorem cnt_flushed (c : Dev nD) (t : Fin cfg0.N) (hf : (cfg0.win 2).flush t = true) :
    (dats m 0 c).flushed 2 t = ((cfg0.win 2).blk t).view.read (Elt Ideal) (cntG (X m c) (Y m c)) := by
  have h15 : t.val % 16 = 15 := (flush0_2 t).mp hf
  refine cnt_flushed_of m c t (cntG (X m c) (Y m c)) fun p q => ?_
  rw [cnt_emb]
  show cntAt m c t.val t.isLt (ix2 p q) = tot cntTerm (X m c) (Y m c) (fin16 (8 * (t.val / 16) + p.val)) q
  rw [cntAt_apply, h15]
  show 0 + ∑ s ∈ Finset.range 16, addend cntTerm (X m c) (Y m c) (16 * (t.val / 16) + s) p q = _
  rw [fold_blocks, zero_add]

/-- An index of the table is in point `t`'s block iff each coordinate is in the block's range on its axis. -/
theorem cnt_mem_blk (t : Fin cfg0.N) (i : S16x13.Idx) :
    i ∈ ((cfg0.win 2).blk t).view.set ↔ ∀ a : Fin 2, win0_2.index t a * S8x13.size a ≤ (i a).val
      ∧ (i a).val < win0_2.index t a * S8x13.size a + S8x13.size a := by
  show i ∈ ((View.whole main_v0_0).slice (win0_2.rect t)).set ↔ _
  rw [View.set_slice_whole, Rect.mem_set_unit]
  exact Iff.rfl

/-- Every entry of the table is in the block of the last point of its sample block's run. -/
theorem cnt_cover (i : S16x13.Idx) :
    ∃ t : Fin cfg0.N, (cfg0.win 2).flush t = true ∧ i ∈ ((cfg0.win 2).blk t).view.set := by
  have hi0 : (i 0).val < 16 := (i 0).isLt
  have hi1 : (i 1).val < 13 := (i 1).isLt
  have hlt : 16 * ((i 0).val / 8) + 15 < cfg0.N := by rw [N32]; omega
  obtain ⟨-, -, -, -, -, -, -, -, e0, e1, -, -⟩ := idx_facts ⟨16 * ((i 0).val / 8) + 15, hlt⟩
  refine ⟨⟨16 * ((i 0).val / 8) + 15, hlt⟩, (flush0_2 _).mpr (by show (16 * ((i 0).val / 8) + 15) % 16 = 15; omega), ?_⟩
  rw [cnt_mem_blk]
  intro a
  match a with
  | ⟨0, _⟩ =>
    show win0_2.index ⟨16 * ((i 0).val / 8) + 15, hlt⟩ (0 : Fin 2) * 8 ≤ (i 0).val
      ∧ (i 0).val < win0_2.index ⟨16 * ((i 0).val / 8) + 15, hlt⟩ (0 : Fin 2) * 8 + 8
    rw [e0]; show (16 * ((i 0).val / 8) + 15) / 16 * 8 ≤ (i 0).val ∧ (i 0).val < (16 * ((i 0).val / 8) + 15) / 16 * 8 + 8
    omega
  | ⟨1, _⟩ =>
    show win0_2.index ⟨16 * ((i 0).val / 8) + 15, hlt⟩ (1 : Fin 2) * 13 ≤ (i 1).val
      ∧ (i 1).val < win0_2.index ⟨16 * ((i 0).val / 8) + 15, hlt⟩ (1 : Fin 2) * 13 + 13
    rw [e1]; omega

/-- The table after the run: the channel totals. -/
theorem cnt_final (c : Dev nD) : (dats m 0 c).arrAt 2 cfg0.N = cntG (X m c) (Y m c) :=
  (dats m 0 c).arrAt_eq_of_cover 2 (cntG (X m c) (Y m c)) (cnt_flushed m c) cnt_cover

/-! ## The err table (window 3) -/

/-- What a point writes back, read entry by entry: if the accumulator block holds, at every `(p, q)`, the table `G` at
    the entry's place in the array, then the written-back block is that block of `G`. -/
theorem err_flushed_of (c : Dev nD) (t : Fin cfg0.N) (G : S16x13.Idx → EReal)
    (hG : ∀ (p : Fin 8) (q : Fin 13),
      (outsAt0 m c t.val t.isLt).2 (ix2 p q) = G (((cfg0.win 3).blk t).view.emb (ix2 p q))) :
    (dats m 0 c).flushed 3 t = ((cfg0.win 3).blk t).view.read (Elt Ideal) G := by
  show (cfg0.win 3).cut (grid0.coords t) ((dats m 0 c).after 3 t) = _
  rw [after0_3]
  refine funext fun (y : S8x13.Idx) => ?_
  obtain ⟨p, q, rfl⟩ : ∃ (p : Fin 8) (q : Fin 13), y = ix2 p q := ⟨y 0, y 1, eq_ix2 y⟩
  rw [View.read_apply]
  exact hG p q

/-- Where entry `(p, q)` of point `t`'s block sits in the table: sample `8 * (t / 16) + p`, channel `q`. -/
theorem err_emb (t : Fin cfg0.N) (p : Fin 8) (q : Fin 13) :
    ((cfg0.win 3).blk t).view.emb (ix2 p q) = (ix2 (fin16 (8 * (t.val / 16) + p.val)) q : S16x13.Idx) := by
  have hN : t.val < 32 := lt_of_lt_of_eq t.isLt N32
  obtain ⟨-, -, -, -, -, -, -, -, -, -, e0, e1⟩ := idx_facts t
  funext a
  apply Fin.ext
  match a with
  | ⟨0, _⟩ =>
    show win0_3.index t (0 : Fin 2) * 8 + 1 * p.val = (8 * (t.val / 16) + p.val) % 16
    rw [e0]; have := p.isLt; omega
  | ⟨1, _⟩ =>
    show win0_3.index t (1 : Fin 2) * 13 + 1 * q.val = q.val
    rw [e1]; omega

/-- What a flushing point writes back is its block of the table of channel totals. -/
theorem err_flushed (c : Dev nD) (t : Fin cfg0.N) (hf : (cfg0.win 3).flush t = true) :
    (dats m 0 c).flushed 3 t = ((cfg0.win 3).blk t).view.read (Elt Ideal) (sqG (X m c) (Y m c)) := by
  have h15 : t.val % 16 = 15 := (flush0_3 t).mp hf
  refine err_flushed_of m c t (sqG (X m c) (Y m c)) fun p q => ?_
  rw [err_emb]
  show errAt m c t.val t.isLt (ix2 p q) = tot sqTerm (X m c) (Y m c) (fin16 (8 * (t.val / 16) + p.val)) q
  rw [errAt_apply, h15]
  show 0 + ∑ s ∈ Finset.range 16, addend sqTerm (X m c) (Y m c) (16 * (t.val / 16) + s) p q = _
  rw [fold_blocks, zero_add]

/-- An index of the table is in point `t`'s block iff each coordinate is in the block's range on its axis. -/
theorem err_mem_blk (t : Fin cfg0.N) (i : S16x13.Idx) :
    i ∈ ((cfg0.win 3).blk t).view.set ↔ ∀ a : Fin 2, win0_3.index t a * S8x13.size a ≤ (i a).val
      ∧ (i a).val < win0_3.index t a * S8x13.size a + S8x13.size a := by
  show i ∈ ((View.whole main_v0_1).slice (win0_3.rect t)).set ↔ _
  rw [View.set_slice_whole, Rect.mem_set_unit]
  exact Iff.rfl

/-- Every entry of the table is in the block of the last point of its sample block's run. -/
theorem err_cover (i : S16x13.Idx) :
    ∃ t : Fin cfg0.N, (cfg0.win 3).flush t = true ∧ i ∈ ((cfg0.win 3).blk t).view.set := by
  have hi0 : (i 0).val < 16 := (i 0).isLt
  have hi1 : (i 1).val < 13 := (i 1).isLt
  have hlt : 16 * ((i 0).val / 8) + 15 < cfg0.N := by rw [N32]; omega
  obtain ⟨-, -, -, -, -, -, -, -, -, -, e0, e1⟩ := idx_facts ⟨16 * ((i 0).val / 8) + 15, hlt⟩
  refine ⟨⟨16 * ((i 0).val / 8) + 15, hlt⟩, (flush0_3 _).mpr (by show (16 * ((i 0).val / 8) + 15) % 16 = 15; omega), ?_⟩
  rw [err_mem_blk]
  intro a
  match a with
  | ⟨0, _⟩ =>
    show win0_3.index ⟨16 * ((i 0).val / 8) + 15, hlt⟩ (0 : Fin 2) * 8 ≤ (i 0).val
      ∧ (i 0).val < win0_3.index ⟨16 * ((i 0).val / 8) + 15, hlt⟩ (0 : Fin 2) * 8 + 8
    rw [e0]; show (16 * ((i 0).val / 8) + 15) / 16 * 8 ≤ (i 0).val ∧ (i 0).val < (16 * ((i 0).val / 8) + 15) / 16 * 8 + 8
    omega
  | ⟨1, _⟩ =>
    show win0_3.index ⟨16 * ((i 0).val / 8) + 15, hlt⟩ (1 : Fin 2) * 13 ≤ (i 1).val
      ∧ (i 1).val < win0_3.index ⟨16 * ((i 0).val / 8) + 15, hlt⟩ (1 : Fin 2) * 13 + 13
    rw [e1]; omega

/-- The table after the run: the channel totals. -/
theorem err_final (c : Dev nD) : (dats m 0 c).arrAt 3 cfg0.N = sqG (X m c) (Y m c) :=
  (dats m 0 c).arrAt_eq_of_cover 3 (sqG (X m c) (Y m c)) (err_flushed m c) err_cover

end Cert.KernelIdeal.KValue

end
-- ==== Proof.HostTail.lean ====
/-
  The host operations after the region, as one function of the two tables the region leaves.

  The lines after the region compute, from the two [16, 13] tables, each channel's weight and mean squared error, the
  two sums over the channels, and the guarded quotient: the scalar function `Spec.tail`, whatever the tables hold.
-/
import proofs.«157886_j79731772883678_2_alg».proof.Proof.Gen.KernelIdeal.Frame
import proofs.«157886_j79731772883678_2_alg».proof.Proof.Spec
import Idealize.ShloMosaic.Lib.StableHlo.Run

noncomputable section

open Idealize.ShloMosaic Idealize.ShloMosaic.TcCoe Idealize.SL.Sem Idealize.ShloMosaic.StableHlo

namespace Cert.KernelIdeal.HostTail

open Cert.KernelIdeal Cert.KernelIdeal.Gen Cert.Spec

variable {F : FTy → Type} [FloatOps F]

set_option maxRecDepth 8192 in
set_option maxHeartbeats 2000000 in
/-- From any contents `W` of the buffers, the lines after the region leave the result at `tail` of the two tables. -/
theorem after_tail (c : Dev nD) (W : Valuation τ sig (Elt F)) :
    StableHlo.after (List.flatten [hostOps1, hostOps1_1, hostOps1_2, hostOps1_3, hostOps1_4, hostOps1_5]) W (Proc.devRef .tc main_v18)
      = tail (F := F) bcast_S_S16x13 reducesTo_S16x13_S_d0_1 h_S_ (W (Proc.devRef .tc main_v0_0)) (W (Proc.devRef .tc main_v0_1)) := by
  simp only [hostOps1, hostOps1_1, hostOps1_2, hostOps1_3, hostOps1_4, hostOps1_5, List.flatten_cons, List.flatten_nil,
    List.append_nil, List.cons_append, List.nil_append]
  after_results_simp
  rfl

end Cert.KernelIdeal.HostTail

end
-- ==== Proof.KernelRun.lean ====
/-
  The kernel's run, read: its result is the scalar function `Spec.tail` of the two tables of channel totals of its
  argument arrays, and the argument arrays end unchanged.

  After the region the two tables hold the channel totals (`cnt_final`, `err_final`); the lines after the region run
  from those contents and leave the result at `tail` of them (`HostTail.after_tail`).
-/
import proofs.«157886_j79731772883678_2_alg».proof.Proof.Tables
import proofs.«157886_j79731772883678_2_alg».proof.Proof.HostTail

noncomputable section

open scoped BigOperators
open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.Spec

variable (m : (ℓ : Loc nD τ sig) → Buf (Elt Ideal) ℓ) (ρ : Dev nD → PrngReg)

/-- The lines after the region, run from the region's exit contents, leave the result at `tail` of the channel totals. -/
theorem result_eq (c : Dev nD) :
    Pipeline.afterTail₀ cfgs (dats m) 0 (V0 m) [hostOps1, hostOps1_1, hostOps1_2, hostOps1_3, hostOps1_4, hostOps1_5] c main_v18
      = tail (F := Ideal) bcast_S_S16x13 reducesTo_S16x13_S_d0_1 h_S_ (cntG (X m c) (Y m c)) (sqG (X m c) (Y m c)) := by
  unfold Pipeline.afterTail₀
  rw [HostTail.after_tail c]
  have e2 := (Pipeline.withArrays_arr spec0 launch0.win.arr_inj c (V0 m c) (fun w => (dats m 0 c).arrAt w cfg0.N) 2).trans
    (cnt_final m c)
  have e3 := (Pipeline.withArrays_arr spec0 launch0.win.arr_inj c (V0 m c) (fun w => (dats m 0 c).arrAt w cfg0.N) 3).trans
    (err_final m c)
  exact congrArg₂ (tail (F := Ideal) bcast_S_S16x13 reducesTo_S16x13_S_d0_1 h_S_) e2 e3

/-- Every weakly fair execution of the idealized kernel terminates with the result at `tail` of the two tables of
    channel totals of the argument arrays, and the argument arrays unchanged. -/
theorem run : θ_run defs (onTc (τ := τ) (main (F := Ideal))) ⟨m, fun _ => 0, ρ⟩ fun r => ∀ c : Dev nD,
      r.2.mem ((c.tc : Thread nD τ).loc main_v18)
        = tail (F := Ideal) bcast_S_S16x13 reducesTo_S16x13_S_d0_1 h_S_
            (cntG (m ((c.tc : Thread nD τ).loc main_arg0)) (m ((c.tc : Thread nD τ).loc main_arg1)))
            (sqG (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v18 (Pipeline.mem_restRefs_of main_v18 rfl (by decide))).trans (result_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.KValue

end
-- ==== Proof.RefValue.lean ====
/-
  The reference's result, read: its two tables are the channel totals of the masks and of the masked squared
  differences, and the rest of it is the scalar function `tail` of the two tables.

  The count is an integer sum of the comparison's bits (each widened to 32 bits) over a channel's 512 x 512 = 2^18
  pixels, converted to a float afterwards: fewer than 2^31 terms, so the 32-bit sum does not wrap and the conversion
  of the sum is the sum of the masks. The error is the host's sum, from zero, of the squared difference where the
  target is positive and of zero elsewhere: a select between `d` and `0` is `d` times the mask.
-/
import proofs.«157886_j79731772883678_2_alg».proof.Proof.RefRun
import proofs.«157886_j79731772883678_2_alg».proof.Proof.Spec

noncomputable section

open scoped BigOperators

namespace Cert.ReferenceIdeal.RefValue

open Cert.ReferenceIdeal Cert.ReferenceIdeal.Gen Cert.Spec Idealize.ShloMosaic Idealize.ShloMosaic.ValueIdx

/-- The reference's table of counts: the bits of `target > 0`, widened, added up in 32 bits over the two image axes,
    converted to a float. -/
def refCnt (Y : FVec Ideal S16x13x512x512 .f32) : FVec Ideal S16x13 .f32 :=
  sitofp (F := Ideal) .f32 (Host.reduce IntOp.addi (extui 32 (cmpf .ogt Y (broadcastInDim S16x13x512x512 ![] bcast_S_S16x13x512x512 (constant S_ .f32 0x00000000#32))) natLt_1_32) (constantI S_ 32 0#32) reducesTo_S16x13x512x512_S16x13_d2_3 h_S_)

/-- The reference's table of errors: the squared difference where `target > 0` and zero elsewhere, summed over the two
    image axes. -/
def refErr (X Y : FVec Ideal S16x13x512x512 .f32) : FVec Ideal S16x13 .f32 :=
  Host.reduceAdd (select (cmpf .ogt Y (broadcastInDim S16x13x512x512 ![] bcast_S_S16x13x512x512 (constant S_ .f32 0x00000000#32))) (mulf (subf X Y) (subf X Y)) (broadcastInDim S16x13x512x512 ![] bcast_S_S16x13x512x512 (id (constant S_ .f32 0x00000000#32)))) (constant S_ .f32 0x00000000#32) reducesTo_S16x13x512x512_S16x13_d2_3 h_S_

/-- The count at `(r, q)` is the channel's total of the masks: 2^18 one-bit terms do not wrap a 32-bit sum. -/
theorem refCnt_eq (X Y : FVec Ideal S16x13x512x512 .f32) : refCnt Y = cntG X Y := by
  funext i
  obtain ⟨r, q, rfl⟩ : ∃ (r : Fin 16) (q : Fin 13), i = ix2 r q := ⟨i 0, i 1, eq_ix2 i⟩
  show (((Host.reduce IntOp.addi _ _ reducesTo_S16x13x512x512_S16x13_d2_3 h_S_ (ix2 r q)).toInt : ℝ) : EReal) = tot cntTerm X Y r q
  rw [Host.reduce_eq_fold]
  refine (toInt_fold_addi _ (fun i => cmpf .ogt Y (broadcastInDim S16x13x512x512 ![] bcast_S_S16x13x512x512 (constant S_ .f32 0x00000000#32)) i) ?_).trans ?_
  · rw [card_filter_drop]; norm_num
  · rw [sum_filter_drop, tot_def]; rfl

/-- The error at `(r, q)` is the channel's total of the masked squared differences. -/
theorem refErr_eq (X Y : FVec Ideal S16x13x512x512 .f32) : refErr X Y = sqG X Y := by
  funext i
  obtain ⟨r, q, rfl⟩ : ∃ (r : Fin 16) (q : Fin 13), i = ix2 r q := ⟨i 0, i 1, eq_ix2 i⟩
  show Ideal.hostReduceAdd reducesTo_S16x13x512x512_S16x13_d2_3 _ _ (ix2 r q) = tot sqTerm X Y r q
  unfold Ideal.hostReduceAdd
  rw [sum_filter_drop, tot_def]
  show Ideal.ofBits .f32 0x00000000#32 + _ = _
  rw [Ideal.ofBits_zero_f32, zero_add]
  refine Finset.sum_congr rfl fun k _ => Finset.sum_congr rfl fun w _ => ?_
  show Scalar.select (valid (Y (ix4 r q k w))) ((X (ix4 r q k w) - Y (ix4 r q k w)) * (X (ix4 r q k w) - Y (ix4 r q k w)))
    (Ideal.ofBits .f32 0x00000000#32) = sqTerm (X (ix4 r q k w)) (Y (ix4 r q k w))
  rw [Ideal.ofBits_zero_f32, select_eq_mul]
  rfl

/-- The reference's whole result is `tail` of the two channel-total tables. -/
theorem result_eq (X Y : FVec Ideal S16x13x512x512 .f32) :
    select (cmpf .ogt (Host.reduceAdd (Host.sqrt (Host.divf (sitofp (F := Ideal) .f32 (Host.reduce IntOp.addi (extui 32 (cmpf .ogt Y (broadcastInDim S16x13x512x512 ![] bcast_S_S16x13x512x512 (constant S_ .f32 0x00000000#32))) natLt_1_32) (constantI S_ 32 0#32) reducesTo_S16x13x512x512_S16x13_d2_3 h_S_)) (broadcastInDim S16x13 ![] bcast_S_S16x13 (constant S_ .f32 0x48800000#32)))) (constant S_ .f32 0x00000000#32) reducesTo_S16x13_S_d0_1 h_S_) (constant S_ .f32 0x00000000#32)) (select (cmpf .ogt (Host.reduceAdd (Host.sqrt (Host.divf (sitofp (F := Ideal) .f32 (Host.reduce IntOp.addi (extui 32 (cmpf .ogt Y (broadcastInDim S16x13x512x512 ![] bcast_S_S16x13x512x512 (constant S_ .f32 0x00000000#32))) natLt_1_32) (constantI S_ 32 0#32) reducesTo_S16x13x512x512_S16x13_d2_3 h_S_)) (broadcastInDim S16x13 ![] bcast_S_S16x13 (constant S_ .f32 0x48800000#32)))) (constant S_ .f32 0x00000000#32) reducesTo_S16x13_S_d0_1 h_S_) (constant S_ .f32 0x00000000#32)) (Host.divf (Host.reduceAdd (mulf (select (cmpf .ogt (sitofp (F := Ideal) .f32 (Host.reduce IntOp.addi (extui 32 (cmpf .ogt Y (broadcastInDim S16x13x512x512 ![] bcast_S_S16x13x512x512 (constant S_ .f32 0x00000000#32))) natLt_1_32) (constantI S_ 32 0#32) reducesTo_S16x13x512x512_S16x13_d2_3 h_S_)) (broadcastInDim S16x13 ![] bcast_S_S16x13 (constant S_ .f32 0x00000000#32))) (Host.divf (Host.reduceAdd (select (cmpf .ogt Y (broadcastInDim S16x13x512x512 ![] bcast_S_S16x13x512x512 (constant S_ .f32 0x00000000#32))) (mulf (subf X Y) (subf X Y)) (broadcastInDim S16x13x512x512 ![] bcast_S_S16x13x512x512 (id (constant S_ .f32 0x00000000#32)))) (constant S_ .f32 0x00000000#32) reducesTo_S16x13x512x512_S16x13_d2_3 h_S_) (maximumf (sitofp (F := Ideal) .f32 (Host.reduce IntOp.addi (extui 32 (cmpf .ogt Y (broadcastInDim S16x13x512x512 ![] bcast_S_S16x13x512x512 (constant S_ .f32 0x00000000#32))) natLt_1_32) (constantI S_ 32 0#32) reducesTo_S16x13x512x512_S16x13_d2_3 h_S_)) (broadcastInDim S16x13 ![] bcast_S_S16x13 (constant S_ .f32 0x3F800000#32)))) (broadcastInDim S16x13 ![] bcast_S_S16x13 (id (constant S_ .f32 0x00000000#32)))) (Host.sqrt (Host.divf (sitofp (F := Ideal) .f32 (Host.reduce IntOp.addi (extui 32 (cmpf .ogt Y (broadcastInDim S16x13x512x512 ![] bcast_S_S16x13x512x512 (constant S_ .f32 0x00000000#32))) natLt_1_32) (constantI S_ 32 0#32) reducesTo_S16x13x512x512_S16x13_d2_3 h_S_)) (broadcastInDim S16x13 ![] bcast_S_S16x13 (constant S_ .f32 0x48800000#32))))) (constant S_ .f32 0x00000000#32) reducesTo_S16x13_S_d0_1 h_S_) (maximumf (Host.reduceAdd (Host.sqrt (Host.divf (sitofp (F := Ideal) .f32 (Host.reduce IntOp.addi (extui 32 (cmpf .ogt Y (broadcastInDim S16x13x512x512 ![] bcast_S_S16x13x512x512 (constant S_ .f32 0x00000000#32))) natLt_1_32) (constantI S_ 32 0#32) reducesTo_S16x13x512x512_S16x13_d2_3 h_S_)) (broadcastInDim S16x13 ![] bcast_S_S16x13 (constant S_ .f32 0x48800000#32)))) (constant S_ .f32 0x00000000#32) reducesTo_S16x13_S_d0_1 h_S_) (constant S_ .f32 0x0DA24260#32))) (id (constant S_ .f32 0x00000000#32))) (id (constant S_ .f32 0x00000000#32))
      = tail (F := Ideal) bcast_S_S16x13 reducesTo_S16x13_S_d0_1 h_S_ (cntG X Y) (sqG X Y) := by
  rw [← refCnt_eq X Y, ← refErr_eq X Y]
  rfl

end Cert.ReferenceIdeal.RefValue

end
-- ==== Proof.lean ====
/-
  The certificate of the per-channel masked squared-error loss: the kernel against its jnp reference, on the extended
  reals.

  Both programs compute, for every sample and channel, the number of positive targets and the sum of the squared
  differences at those pixels, and then one and the same scalar function of the two [16, 13] tables (`Spec.tail`).
  The kernel streams bands of 32 image lines through two accumulator blocks, sixteen bands to a channel; the reference
  reduces each channel in one operation, counting in 32-bit integers. The two agree because a finite sum may be
  regrouped (no finiteness of the entries is needed), because 2^18 one-bit terms do not wrap a 32-bit sum, and because a
  squared difference times the mask's 0 or 1 is the squared difference selected by the comparison. The precondition is
  never opened.

    frame_Kernel, frame_KernelIdeal — the generated frame of the region and of the lines after it;
    frame_ReferenceIdeal            — the reference's run with its result dropped;
    preserves_Kernel_KernelIdeal    — the idealization rewrote nothing: `True`;
    algebraic_KernelIdeal_ReferenceIdeal — both results are `Spec.tail` of the tables of channel totals.
-/
import proofs.«157886_j79731772883678_2_alg».proof.Defs
import proofs.«157886_j79731772883678_2_alg».proof.Proof.Gen.Kernel
import proofs.«157886_j79731772883678_2_alg».proof.Proof.Gen.Kernel.Skeleton
import proofs.«157886_j79731772883678_2_alg».proof.Proof.Gen.Kernel.Launch
import proofs.«157886_j79731772883678_2_alg».proof.Proof.Gen.Kernel.Points
import proofs.«157886_j79731772883678_2_alg».proof.Proof.Gen.Kernel.Frame
import proofs.«157886_j79731772883678_2_alg».proof.Proof.Gen.KernelIdeal
import proofs.«157886_j79731772883678_2_alg».proof.Proof.Gen.KernelIdeal.Skeleton
import proofs.«157886_j79731772883678_2_alg».proof.Proof.Gen.KernelIdeal.Launch
import proofs.«157886_j79731772883678_2_alg».proof.Proof.Gen.KernelIdeal.Points
import proofs.«157886_j79731772883678_2_alg».proof.Proof.Gen.KernelIdeal.Frame
import proofs.«157886_j79731772883678_2_alg».proof.Proof.Gen.ReferenceIdeal
import proofs.«157886_j79731772883678_2_alg».proof.Proof.Gen.Pre_finite_inputs
import proofs.«157886_j79731772883678_2_alg».proof.Proof.KernelRun
import proofs.«157886_j79731772883678_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- From memories agreeing on the two arguments, the kernel's result is `tail` of the tables of channel totals
    (its run, read) and so is the reference's (its run, read: `RefValue.result_eq`). -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.ValueP.run (F := Ideal) m' ρ')
  rw [(hagree c).1, (hagree c).2]
  exact Cert.ReferenceIdeal.RefValue.result_eq _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
